-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S256x2048 : Shape := ⟨2, ![256, 2048]⟩
abbrev S2048x256 : Shape := ⟨2, ![2048, 256]⟩
abbrev S4x256x2048 : Shape := ⟨3, ![4, 256, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S256x2048 : S_.BroadcastsInDim S256x2048 (![] : Fin 0 → Fin S256x2048.rank)
  reducesTo_S256x2048_S_d0_1 : S256x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S4x256x2048 : S_.BroadcastsInDim S4x256x2048 (![] : Fin 0 → Fin S4x256x2048.rank)
  reducesTo_S4x256x2048_S_d0_1_2 : S4x256x2048.ReducesTo [0, 1, 2] S_

variable [Facts]

def fn_part1 {F : FTy → Type} [FloatOps F] (main_arg4 : FVec F S2048x256 .f32) (main_arg5 : FVec F S4x256x2048 .f32) (main_arg6 : FVec F S4x256x2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S4x256x2048 .f32 := Host.absf main_arg5
  let main_cst_8 : FVec F S_ .f32 := constant S_ .f32 0x7F800000#32
  let main_v25 : FVec F S4x256x2048 .f32 := broadcastInDim S4x256x2048 ![] bcast_S_S4x256x2048 main_cst_8
  let main_v26 : IVec S4x256x2048 1 := cmpf .olt main_v24 main_v25
  let main_c_9 : IVec S_ 1 := constantI S_ 1 1#1
  let main_v27 : IVec S_ 1 := (fun x v => Host.reduce IntOp.andi x v reducesTo_S4x256x2048_S_d0_1_2 h_S_) main_v26 main_c_9
  let main_v28 : IVec S_ 1 := andi main_v23 main_v27
  let main_v29 : FVec F S4x256x2048 .f32 := Host.absf main_arg6
  let main_cst_10 : FVec F S_ .f32 := constant S_ .f32 0x7F800000#32
  let main_v30 : FVec F S4x256x2048 .f32 := broadcastInDim S4x256x2048 ![] bcast_S_S4x256x2048 main_cst_10
  let main_v31 : IVec S4x256x2048 1 := cmpf .olt main_v29 main_v30
  let main_c_11 : IVec S_ 1 := constantI S_ 1 1#1
  let main_v32 : IVec S_ 1 := (fun x v => Host.reduce IntOp.andi x v reducesTo_S4x256x2048_S_d0_1_2 h_S_) main_v31 main_c_11
  let main_v33 : IVec S_ 1 := andi main_v28 main_v32
  main_v33

def fn {F : FTy → Type} [FloatOps F] (main_arg0 : FVec F S4x2048x2048 .f32) (main_arg1 : FVec F S2048x2048 .f32) (main_arg2 : FVec F S2048 .f32) (main_arg3 : FVec F S256x2048 .f32) (main_arg4 : FVec F S2048x256 .f32) (main_arg5 : FVec F S4x256x2048 .f32) (main_arg6 : FVec F S4x256x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S256x2048 : Shape := ⟨2, ![256, 2048]⟩
abbrev S2048x256 : Shape := ⟨2, ![2048, 256]⟩
abbrev S4x256x2048 : Shape := ⟨3, ![4, 256, 2048]⟩
abbrev S_ : Shape := ⟨0, ![]⟩
abbrev S1x256x2048 : Shape := ⟨3, ![1, 256, 2048]⟩
abbrev S1x2048 : Shape := ⟨2, ![1, 2048]⟩
abbrev S256x256 : Shape := ⟨2, ![256, 256]⟩

abbrev nBuf : Space → Nat
  | .hbm => 22
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S256x2048, .f32⟩
  | .hbm, ⟨4, _⟩ => ⟨S2048x256, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S1x256x2048, .f32⟩
  | .hbm, ⟨15, _⟩ => ⟨S4x256x2048, .f32⟩
  | .hbm, ⟨16, _⟩ => ⟨S4x256x2048, .f32⟩
  | .hbm, ⟨17, _⟩ => ⟨S4x256x2048, .bf16⟩
  | .hbm, ⟨18, _⟩ => ⟨S2048x2048, .bf16⟩
  | .hbm, ⟨19, _⟩ => ⟨S2048x256, .bf16⟩
  | .hbm, ⟨20, _⟩ => ⟨S1x2048, .f32⟩
  | .hbm, ⟨21, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S2048x2048, .bf16⟩
  | .local _ .vmem, ⟨5, _⟩ => ⟨S2048x256, .bf16⟩
  | .local _ .vmem, ⟨6, _⟩ => ⟨S1x2048, .f32⟩
  | .local _ .vmem, ⟨7, _⟩ => ⟨S1x256x2048, .f32⟩
  | .local _ .vmem, ⟨8, _⟩ => ⟨S1x256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S256x2048 : S_.BroadcastsInDim S256x2048 (![] : Fin 0 → Fin S256x2048.rank)
  bcast_S256x2048_S1x256x2048_1_2 : S256x2048.BroadcastsInDim S1x256x2048 (![1, 2] : Fin 2 → Fin S1x256x2048.rank)
  bcast_S1x256x2048_S4x256x2048_0_1_2 : S1x256x2048.BroadcastsInDim S4x256x2048 (![0, 1, 2] : Fin 3 → Fin S4x256x2048.rank)
  bitsLt_bf16_f32 : FTy.bits .bf16 < FTy.bits .f32
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S1x256x2048 : S256x2048.ShapeCasts S1x256x2048
  dot_S256x2048_S256x2048_S256x256_1_1_0_0_n_n_wf : DotDims.WF S256x2048 S256x2048 S256x256 [1] [1] [0] [0] [] []
  dot_S256x2048_S2048x2048_S256x2048_1_1_0_0_n_n_wf : DotDims.WF S256x2048 S2048x2048 S256x2048 [1] [1] [0] [0] [] []
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x2048x2048.size a
  hwx0_0 : ∀ i : grid0.Coords, EltTy.bits .f32 = 32 ∨ (Rect.block (s := S4x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S4x256x2048.size a
  hwx0_1 : ∀ i : grid0.Coords, EltTy.bits .bf16 = 32 ∨ (Rect.block (s := S4x256x2048) S1x256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x2048x2048.size a
  hwx0_5 : ∀ i : grid0.Coords, EltTy.bits .f32 = 32 ∨ (Rect.block (s := S4x2048x2048) S1x256x2048.size (cc0_transform_5 i) (hinb0_5 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S256x2048 : Shape := ⟨2, ![256, 2048]⟩
abbrev S2048x256 : Shape := ⟨2, ![2048, 256]⟩
abbrev S4x256x2048 : Shape := ⟨3, ![4, 256, 2048]⟩
abbrev S_ : Shape := ⟨0, ![]⟩
abbrev S1x256x2048 : Shape := ⟨3, ![1, 256, 2048]⟩
abbrev S4x2048x256 : Shape := ⟨3, ![4, 2048, 256]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S256x2048, .f32⟩
  | .hbm, ⟨4, _⟩ => ⟨S2048x256, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S1x256x2048, .f32⟩
  | .hbm, ⟨15, _⟩ => ⟨S4x256x2048, .f32⟩
  | .hbm, ⟨16, _⟩ => ⟨S4x256x2048, .f32⟩
  | .hbm, ⟨17, _⟩ => ⟨S4x2048x256, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S256x2048 : S_.BroadcastsInDim S256x2048 (![] : Fin 0 → Fin S256x2048.rank)
  bcast_S256x2048_S1x256x2048_1_2 : S256x2048.BroadcastsInDim S1x256x2048 (![1, 2] : Fin 2 → Fin S1x256x2048.rank)
  bcast_S1x256x2048_S4x256x2048_0_1_2 : S1x256x2048.BroadcastsInDim S4x256x2048 (![0, 1, 2] : Fin 3 → Fin S4x256x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S4x256x2048_S4x2048x256_2_2_1_1_0_0_wf : DotDims.WF S4x2048x2048 S4x256x2048 S4x2048x256 [2] [2] [1] [1] [0] [0]
  dot_S4x2048x2048_S2048x2048_S4x2048x2048_2_1_01_0_n_n_wf : DotDims.WF S4x2048x2048 S2048x2048 S4x2048x2048 [2] [1] [0, 1] [0] [] []
  dot_S4x2048x256_S2048x256_S4x2048x2048_2_1_01_0_n_n_wf : DotDims.WF S4x2048x256 S2048x256 S4x2048x2048 [2] [1] [0, 1] [0] [] []

variable [Facts₀]

def dot_S4x2048x2048_S4x256x2048_S4x2048x256_2_2_1_1_0_0 : DotDims S4x2048x2048 S4x256x2048 S4x2048x256 where
  lhsContracting := [2]
  rhsContracting := [2]
  lhsNonContracting := [1]
  rhsNonContracting := [1]
  lhsBatch := [0]
  rhsBatch := [0]
  wf := dot_S4x2048x2048_S4x256x2048_S4x2048x256_2_2_1_1_0_0_wf
def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x256_S2048x256_S4x2048x2048_2_1_01_0_n_n : DotDims S4x2048x256 S2048x256 S4x2048x2048 where
  lhsContracting := [2]
  rhsContracting := [1]
  lhsNonContracting := [0, 1]
  rhsNonContracting := [0]
  lhsBatch := []
  rhsBatch := []
  wf := dot_S4x2048x256_S2048x256_S4x2048x2048_2_1_01_0_n_n_wf

class Facts : Prop extends Facts₀ where

variable [Facts]
-- ==== Proof.Entry.lean ====
/-
  The function both programs compute, stated once and over no program.

  Write x : [4, 2048, 2048], W : [2048, 2048], β : [2048], ℓ : [256, 2048], P : [2048, 256], S : [4, 256, 2048].
  The fast weight of batch b is the state scaled entry by entry by a learning rate,
      s[b, r, k] = (c₀ · exp (ℓ[r, k] · c₁)) · S[b, r, k],
  with c₀ and c₁ two float constants that both programs carry as the same binary words, so that their
  values are never needed. One output entry is
      y[b, j, o] = (Σ_k x[b, j, k] · W[o, k]  +  Σ_r (Σ_k x[b, j, k] · s[b, r, k]) · P[o, r])  +  β[o]:
  the plain linear map, plus the low-rank correction through the fast weight, plus the bias. The other
  program adds the bias before the correction; on the extended reals addition is commutative and
  associative at the infinities too, so the two groupings agree with no finiteness assumed.
-/
import Idealize.ShloMosaic.PureOps.Ideal
import Idealize.ShloMosaic.PureOps.Ideal.Laws
import Idealize.ShloMosaic.Lib.ValueIdx
import Idealize.ShloMosaic.Lib.Pipeline.Value

noncomputable section

namespace Cert.FastWeight

open Idealize.ShloMosaic Idealize.ShloMosaic.ValueIdx

/-- The fast weight s[b, r, k]: the state's entry times the learning rate c₀ · exp (ℓ[r, k] · c₁). -/
def fastWeight (loglr : (⟨2, ![256, 2048]⟩ : Shape).Idx → EReal) (state : (⟨3, ![4, 256, 2048]⟩ : Shape).Idx → EReal)
    (b : Fin 4) (r : Fin 256) (k : Fin 2048) : EReal :=
  (Ideal.ofBits .f32 0x3C23D70A#32 * Ideal.exp (loglr (ix2 r k) * Ideal.ofBits .f32 0x423504F3#32)) * state (ix3 b r k)

/-- One output entry from a row of x, the fast weight of its batch, row o of W, row o of P and β[o]:
    the linear map, plus the correction through the fast weight, plus the bias. -/
def entry (xrow : Fin 2048 → EReal) (s : Fin 256 → Fin 2048 → EReal) (wrow : Fin 2048 → EReal) (prow : Fin 256 → EReal)
    (β : EReal) : EReal :=
  (∑ k : Fin 2048, xrow k * wrow k + ∑ r : Fin 256, (∑ k : Fin 2048, xrow k * s r k) * prow r) + β

/-- Adding the bias before the correction gives the same entry: (a + β) + c = (a + c) + β in any commutative
    additive monoid, the extended reals among them. -/
theorem bias_first_eq_entry (xrow : Fin 2048 → EReal) (s : Fin 256 → Fin 2048 → EReal) (wrow : Fin 2048 → EReal)
    (prow : Fin 256 → EReal) (β : EReal) :
    (∑ k : Fin 2048, xrow k * wrow k + β) + ∑ r : Fin 256, (∑ k : Fin 2048, xrow k * s r k) * prow r
      = entry xrow s wrow prow β :=
  add_right_comm _ _ _

/-- The whole result array as one function of the six argument arrays, index by index. -/
def result (x : (⟨3, ![4, 2048, 2048]⟩ : Shape).Idx → EReal) (w : (⟨2, ![2048, 2048]⟩ : Shape).Idx → EReal)
    (bias : (⟨1, ![2048]⟩ : Shape).Idx → EReal) (loglr : (⟨2, ![256, 2048]⟩ : Shape).Idx → EReal)
    (op : (⟨2, ![2048, 256]⟩ : Shape).Idx → EReal) (state : (⟨3, ![4, 256, 2048]⟩ : Shape).Idx → EReal) :
    (⟨3, ![4, 2048, 2048]⟩ : Shape).Idx → EReal := fun i =>
  entry (fun k => x (ix3 (i 0) (i 1) k)) (fun r k => fastWeight loglr state (i 0) r k) (fun k => w (ix2 (i 2) k))
    (fun r => op (ix2 (i 2) r)) (bias (ix1 (i 2)))

/-- The host operations that both programs run first, read at an index: the constant c₁ broadcast and multiplied
    into ℓ, the exponential, the constant c₀ broadcast and multiplied in, the [256, 2048] rate given a unit batch
    axis and repeated over the four batches, and the product with the state. At (b, r, k) this is the fast weight. -/
theorem scaledState_apply
    (h0 : (⟨0, ![]⟩ : Shape).BroadcastsInDim ⟨2, ![256, 2048]⟩ (![] : Fin 0 → Fin 2))
    (h1 : (⟨2, ![256, 2048]⟩ : Shape).BroadcastsInDim ⟨3, ![1, 256, 2048]⟩ (![1, 2] : Fin 2 → Fin 3))
    (h2 : (⟨3, ![1, 256, 2048]⟩ : Shape).BroadcastsInDim ⟨3, ![4, 256, 2048]⟩ (![0, 1, 2] : Fin 3 → Fin 3))
    (loglr : FVec Ideal ⟨2, ![256, 2048]⟩ .f32) (state : FVec Ideal ⟨3, ![4, 256, 2048]⟩ .f32)
    (b : Fin 4) (r : Fin 256) (k : Fin 2048) :
    mulf (broadcastInDim (s := ⟨3, ![1, 256, 2048]⟩) ⟨3, ![4, 256, 2048]⟩ ![0, 1, 2] h2 (broadcastInDim (s := ⟨2, ![256, 2048]⟩) ⟨3, ![1, 256, 2048]⟩ ![1, 2] h1
        (mulf (broadcastInDim (s := ⟨0, ![]⟩) ⟨2, ![256, 2048]⟩ ![] h0 (constant (F := Ideal) ⟨0, ![]⟩ .f32 0x3C23D70A#32))
          (Host.exp (mulf loglr (broadcastInDim (s := ⟨0, ![]⟩) ⟨2, ![256, 2048]⟩ ![] h0 (constant (F := Ideal) ⟨0, ![]⟩ .f32 0x423504F3#32)))))))
      state (ix3 b r k)
      = fastWeight loglr state b r k := by
  have e2 : ∀ y : (⟨3, ![1, 256, 2048]⟩ : Shape).Idx → EReal,
      broadcastInDim (s := ⟨3, ![1, 256, 2048]⟩) ⟨3, ![4, 256, 2048]⟩ ![0, 1, 2] h2 y (ix3 b r k) = y (ix3 (0 : Fin 1) r k) := fun y =>
    broadcastInDim_apply _ h2 y _ _ (fun a => match a with
      | ⟨0, _⟩ => by show 0 = if (1 : Nat) = 1 then 0 else b.val; rw [if_pos rfl]
      | ⟨1, _⟩ => by show r.val = if (256 : Nat) = 1 then 0 else r.val; rw [if_neg (by decide)]
      | ⟨2, _⟩ => by show k.val = if (2048 : Nat) = 1 then 0 else k.val; rw [if_neg (by decide)])
  have e1 : ∀ y : (⟨2, ![256, 2048]⟩ : Shape).Idx → EReal,
      broadcastInDim (s := ⟨2, ![256, 2048]⟩) ⟨3, ![1, 256, 2048]⟩ ![1, 2] h1 y (ix3 (0 : Fin 1) r k) = y (ix2 r k) := fun y =>
    broadcastInDim_apply _ h1 y _ _ (fun a => match a with
      | ⟨0, _⟩ => by show r.val = if (256 : Nat) = 1 then 0 else r.val; rw [if_neg (by decide)]
      | ⟨1, _⟩ => by show k.val = if (2048 : Nat) = 1 then 0 else k.val; rw [if_neg (by decide)])
  have e0 : ∀ y : (⟨0, ![]⟩ : Shape).Idx → EReal,
      broadcastInDim (s := ⟨0, ![]⟩) ⟨2, ![256, 2048]⟩ ![] h0 y (ix2 r k) = y ix0 := fun y =>
    broadcastInDim_apply _ h0 y _ _ (fun a => a.elim0)
  show broadcastInDim (s := ⟨3, ![1, 256, 2048]⟩) ⟨3, ![4, 256, 2048]⟩ ![0, 1, 2] h2 _ (ix3 b r k) * state (ix3 b r k) = _
  rw [e2, e1]
  show (broadcastInDim (s := ⟨0, ![]⟩) ⟨2, ![256, 2048]⟩ ![] h0 _ (ix2 r k)
      * Ideal.exp (loglr (ix2 r k) * broadcastInDim (s := ⟨0, ![]⟩) ⟨2, ![256, 2048]⟩ ![] h0 _ (ix2 r k))) * state (ix3 b r k) = _
  rw [e0, e0]
  rfl

end Cert.FastWeight

end
-- ==== Proof.Reference.lean ====
/-
  The reference computes the specification.

  Its host program forms the fast weight s (the shared chain of Entry.lean), z = x · s contracting the last axis of
  both within each batch, a = x Wᵀ, (a + bias) with the bias repeated over batches and rows, c = z Pᵀ, and returns
  (a + bias) + c. Each product is, on the extended reals, the plain sum over the contracted coordinate, read at
  the operand indices below; the result differs from the specification's entry only in adding the bias before
  the low-rank correction.
-/
import proofs.«141108_j48919677501653_2_alg».proof.Proof.Gen.ReferenceIdeal.Read
import proofs.«141108_j48919677501653_2_alg».proof.Proof.Entry

noncomputable section

namespace Cert.ReferenceIdeal.AsEntry

open Cert.ReferenceIdeal Cert.ReferenceIdeal.Gen Cert.ReferenceIdeal.Read Idealize.ShloMosaic Idealize.ShloMosaic.ValueIdx
open Cert.FastWeight

/-- The reference's scaled state at (b, r, k) is the fast weight: its seven stages are the shared chain. -/
theorem scaled_apply (x3 : FVec Ideal S256x2048 .f32) (x5 : FVec Ideal S4x256x2048 .f32) (b : Fin 4) (r : Fin 256) (k : Fin 2048) :
    val_main_v7 (F := Ideal) x3 x5 (ix3 b r k) = fastWeight x3 x5 b r k :=
  scaledState_apply bcast_S_S256x2048 bcast_S256x2048_S1x256x2048_1_2 bcast_S1x256x2048_S4x256x2048_0_1_2 x3 x5 b r k

/-! ## Where each operation reads its operands, for the output index (b, j, o) -/

theorem linear_lhs (b : Fin 4) (j o k : Fin 2048) : lidx_main_v9 (ix3 b j o) k = ix3 b j k :=
  funext fun a => Fin.ext (by match a with | ⟨0, _⟩ => rfl | ⟨1, _⟩ => rfl | ⟨2, _⟩ => rfl)
theorem linear_rhs (b : Fin 4) (j o k : Fin 2048) : ridx_main_v9 (ix3 b j o) k = ix2 o k :=
  funext fun a => Fin.ext (by match a with | ⟨0, _⟩ => rfl | ⟨1, _⟩ => rfl)
theorem bias_idx (b : Fin 4) (j o : Fin 2048) : idx_main_v10 (idx_main_v11 (ix3 b j o)) = ix1 o :=
  funext fun a => Fin.ext (by match a with | ⟨0, _⟩ => rfl)
theorem proj_lhs (b : Fin 4) (j o : Fin 2048) (r : Fin 256) (k : Fin 2048) :
    lidx_main_v8 (lidx_main_v13 (ix3 b j o) r) k = ix3 b j k :=
  funext fun a => Fin.ext (by match a with | ⟨0, _⟩ => rfl | ⟨1, _⟩ => rfl | ⟨2, _⟩ => rfl)
theorem proj_rhs (b : Fin 4) (j o : Fin 2048) (r : Fin 256) (k : Fin 2048) :
    ridx_main_v8 (lidx_main_v13 (ix3 b j o) r) k = ix3 b r k :=
  funext fun a => Fin.ext (by match a with | ⟨0, _⟩ => rfl | ⟨1, _⟩ => rfl | ⟨2, _⟩ => rfl)
theorem lowRank_rhs (b : Fin 4) (j o : Fin 2048) (r : Fin 256) : ridx_main_v13 (ix3 b j o) r = ix2 o r :=
  funext fun a => Fin.ext (by match a with | ⟨0, _⟩ => rfl | ⟨1, _⟩ => rfl)

/-- The reference's result, as a function of its six used arguments, is the specification. -/
theorem result_eq (x0 : FVec Ideal S4x2048x2048 .f32) (x1 : FVec Ideal S2048x2048 .f32) (x2 : FVec Ideal S2048 .f32)
    (x3 : FVec Ideal S256x2048 .f32) (x4 : FVec Ideal S2048x256 .f32) (x5 : FVec Ideal S4x256x2048 .f32) :
    val_main_v14 (F := Ideal) x0 x1 x2 x3 x4 x5 = result x0 x1 x2 x3 x4 x5 := by
  funext i
  obtain ⟨b, j, o, rfl⟩ : ∃ (b : Fin 4) (j o : Fin 2048), i = ix3 b j o := ⟨i 0, i 1, i 2, eq_ix3 i⟩
  rw [val_main_v14_apply, val_main_v12_apply, val_main_v13_apply, val_main_v9_apply, val_main_v11_apply, val_main_v10_apply]
  simp only [val_main_v8_apply, linear_lhs, linear_rhs, bias_idx, proj_lhs, proj_rhs, lowRank_rhs, scaled_apply, Ideal.addf_def]
  exact bias_first_eq_entry _ _ _ _ _

end Cert.ReferenceIdeal.AsEntry

end
-- ==== Proof.Body.lean ====
/-
  What the kernel body stores, read at an index.

  At a grid point the body holds a [1, 256, 2048] block of x (256 rows of one batch), the [1, 256, 2048] fast
  weight of that batch, all of W [2048, 2048] and P [2048, 256], and the bias as a row [1, 2048]. It forms
      z = x sᵀ [256, 256],   a = x Wᵀ [256, 2048],   c = z Pᵀ [256, 2048],   (a + c) + bias,
  each product a matrix product into a zero accumulator that contracts the LAST axis of both operands, the
  operands passed through narrower float formats on the way. On the extended reals a change of format is the
  identity and such a product is the plain sum over the contracted coordinate, so the entry stored at row p,
  column q is the specification's entry of row p of the block, the block's fast weight, row q of W, row q of P
  and the bias at q.
-/
import proofs.«141108_j48919677501653_2_alg».proof.Proof.Gen.KernelIdeal.Skeleton
import proofs.«141108_j48919677501653_2_alg».proof.Proof.Entry
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The three products: each contracts the last axis of both operands

For dimension numbers with no batch axis, axis 0 of each operand kept and axis 1 contracted, the left operand is read
at (row of the result, k) and the right operand at (column of the result, k); the contraction index has one
coordinate, which ranges over `Fin K`. -/

theorem fastProj_apply_lhsRow (j : S256x256.Idx) (κ : dot_S256x2048_S256x2048_S256x256_1_1_0_0_n_n.contr.Idx) :
    (dot_S256x2048_S256x2048_S256x256_1_1_0_0_n_n.lhsIdx j κ 0).val = (j 0).val := by
  unfold DotDims.lhsIdx
  rw [dif_neg (show ¬(0 : Fin S256x2048.rank) ∈ dot_S256x2048_S256x2048_S256x256_1_1_0_0_n_n.lhsBatch by decide),
    dif_pos (show (0 : Fin S256x2048.rank) ∈ dot_S256x2048_S256x2048_S256x256_1_1_0_0_n_n.lhsNonContracting by decide)]
  rfl
theorem fastProj_apply_rhsRow (j : S256x256.Idx) (κ : dot_S256x2048_S256x2048_S256x256_1_1_0_0_n_n.contr.Idx) :
    (dot_S256x2048_S256x2048_S256x256_1_1_0_0_n_n.rhsIdx j κ 0).val = (j 1).val := by
  unfold DotDims.rhsIdx
  rw [dif_neg (show ¬(0 : Fin S256x2048.rank) ∈ dot_S256x2048_S256x2048_S256x256_1_1_0_0_n_n.rhsBatch by decide),
    dif_pos (show (0 : Fin S256x2048.rank) ∈ dot_S256x2048_S256x2048_S256x256_1_1_0_0_n_n.rhsNonContracting by decide)]
  rfl
/-- z[p, r] = Σ_k x[p, k] · s[r, k]: the block's rows against the fast weight's rows. -/
theorem fastProj_apply (A : FVec Ideal S256x2048 .bf16) (B : FVec Ideal S256x2048 .bf16) (p : Fin 256) (r : Fin 256) :
    matmul dot_S256x2048_S256x2048_S256x256_1_1_0_0_n_n none A B (constant (F := Ideal) S256x256 .f32 0x00000000#32) (ix2 p r)
      = ∑ k : Fin 2048, A (ix2 p k) * B (ix2 r k) := by
  simp only [matmul]
  rw [Ideal.matmul_constant_zero_apply, ← Equiv.sum_comp (contrEquiv1 dot_S256x2048_S256x2048_S256x256_1_1_0_0_n_n 2048 rfl rfl).symm]
  refine Finset.sum_congr rfl fun k _ => ?_
  have hk := contrEquiv1_symm_val dot_S256x2048_S256x2048_S256x256_1_1_0_0_n_n 2048 rfl rfl k
  have el : dot_S256x2048_S256x2048_S256x256_1_1_0_0_n_n.lhsIdx (ix2 p r) ((contrEquiv1 dot_S256x2048_S256x2048_S256x256_1_1_0_0_n_n 2048 rfl rfl).symm k) = ix2 p k :=
    funext fun a => Fin.ext (by
      match a with
      | ⟨0, _⟩ => exact fastProj_apply_lhsRow _ _
      | ⟨1, _⟩ => exact (dot_S256x2048_S256x2048_S256x256_1_1_0_0_n_n.lhsIdx_val_of_single rfl _ _).trans hk)
  have er : dot_S256x2048_S256x2048_S256x256_1_1_0_0_n_n.rhsIdx (ix2 p r) ((contrEquiv1 dot_S256x2048_S256x2048_S256x256_1_1_0_0_n_n 2048 rfl rfl).symm k) = ix2 r k :=
    funext fun a => Fin.ext (by
      match a with
      | ⟨0, _⟩ => exact fastProj_apply_rhsRow _ _
      | ⟨1, _⟩ => exact (dot_S256x2048_S256x2048_S256x256_1_1_0_0_n_n.rhsIdx_val_of_single rfl _ _).trans hk)
  rw [el, er]

theorem linear_apply_lhsRow (j : S256x2048.Idx) (κ : dot_S256x2048_S2048x2048_S256x2048_1_1_0_0_n_n.contr.Idx) :
    (dot_S256x2048_S2048x2048_S256x2048_1_1_0_0_n_n.lhsIdx j κ 0).val = (j 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl
theorem linear_apply_rhsRow (j : S256x2048.Idx) (κ : dot_S256x2048_S2048x2048_S256x2048_1_1_0_0_n_n.contr.Idx) :
    (dot_S256x2048_S2048x2048_S256x2048_1_1_0_0_n_n.rhsIdx j κ 0).val = (j 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl
/-- a[p, q] = Σ_k x[p, k] · W[q, k]: the block's rows against the rows of W. -/
theorem linear_apply (A : FVec Ideal S256x2048 .bf16) (B : FVec Ideal S2048x2048 .bf16) (p : Fin 256) (q : Fin 2048) :
    matmul dot_S256x2048_S2048x2048_S256x2048_1_1_0_0_n_n none A B (constant (F := Ideal) S256x2048 .f32 0x00000000#32) (ix2 p q)
      = ∑ k : Fin 2048, A (ix2 p k) * B (ix2 q k) := by
  simp only [matmul]
  rw [Ideal.matmul_constant_zero_apply, ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p q) ((contrEquiv1 dot_S256x2048_S2048x2048_S256x2048_1_1_0_0_n_n 2048 rfl rfl).symm k) = ix2 p k :=
    funext fun a => Fin.ext (by
      match a with
      | ⟨0, _⟩ => exact linear_apply_lhsRow _ _
      | ⟨1, _⟩ => exact (dot_S256x2048_S2048x2048_S256x2048_1_1_0_0_n_n.lhsIdx_val_of_single rfl _ _).trans hk)
  have er : dot_S256x2048_S2048x2048_S256x2048_1_1_0_0_n_n.rhsIdx (ix2 p q) ((contrEquiv1 dot_S256x2048_S2048x2048_S256x2048_1_1_0_0_n_n 2048 rfl rfl).symm k) = ix2 q k :=
    funext fun a => Fin.ext (by
      match a with
      | ⟨0, _⟩ => exact linear_apply_rhsRow _ _
      | ⟨1, _⟩ => exact (dot_S256x2048_S2048x2048_S256x2048_1_1_0_0_n_n.rhsIdx_val_of_single rfl _ _).trans hk)
  rw [el, er]

theorem lowRank_apply_lhsRow (j : S256x2048.Idx) (κ : dot_S256x256_S2048x256_S256x2048_1_1_0_0_n_n.contr.Idx) :
    (dot_S256x256_S2048x256_S256x2048_1_1_0_0_n_n.lhsIdx j κ 0).val = (j 0).val := by
  unfold DotDims.lhsIdx
  rw [dif_neg (show ¬(0 : Fin S256x256.rank) ∈ dot_S256x256_S2048x256_S256x2048_1_1_0_0_n_n.lhsBatch by decide),
    dif_pos (show (0 : Fin S256x256.rank) ∈ dot_S256x256_S2048x256_S256x2048_1_1_0_0_n_n.lhsNonContracting by decide)]
  rfl
theorem lowRank_apply_rhsRow (j : S256x2048.Idx) (κ : dot_S256x256_S2048x256_S256x2048_1_1_0_0_n_n.contr.Idx) :
    (dot_S256x256_S2048x256_S256x2048_1_1_0_0_n_n.rhsIdx j κ 0).val = (j 1).val := by
  unfold DotDims.rhsIdx
  rw [dif_neg (show ¬(0 : Fin S2048x256.rank) ∈ dot_S256x256_S2048x256_S256x2048_1_1_0_0_n_n.rhsBatch by decide),
    dif_pos (show (0 : Fin S2048x256.rank) ∈ dot_S256x256_S2048x256_S256x2048_1_1_0_0_n_n.rhsNonContracting by decide)]
  rfl
/-- c[p, q] = Σ_r z[p, r] · P[q, r]: the projections against the rows of P. -/
theorem lowRank_apply (A : FVec Ideal S256x256 .bf16) (B : FVec Ideal S2048x256 .bf16) (p : Fin 256) (q : Fin 2048) :
    matmul dot_S256x256_S2048x256_S256x2048_1_1_0_0_n_n none A B (constant (F := Ideal) S256x2048 .f32 0x00000000#32) (ix2 p q)
      = ∑ k : Fin 256, A (ix2 p k) * B (ix2 q k) := by
  simp only [matmul]
  rw [Ideal.matmul_constant_zero_apply, ← Equiv.sum_comp (contrEquiv1 dot_S256x256_S2048x256_S256x2048_1_1_0_0_n_n 256 rfl rfl).symm]
  refine Finset.sum_congr rfl fun k _ => ?_
  have hk := contrEquiv1_symm_val dot_S256x256_S2048x256_S256x2048_1_1_0_0_n_n 256 rfl rfl k
  have el : dot_S256x256_S2048x256_S256x2048_1_1_0_0_n_n.lhsIdx (ix2 p q) ((contrEquiv1 dot_S256x256_S2048x256_S256x2048_1_1_0_0_n_n 256 rfl rfl).symm k) = ix2 p k :=
    funext fun a => Fin.ext (by
      match a with
      | ⟨0, _⟩ => exact lowRank_apply_lhsRow _ _
      | ⟨1, _⟩ => exact (dot_S256x256_S2048x256_S256x2048_1_1_0_0_n_n.lhsIdx_val_of_single rfl _ _).trans hk)
  have er : dot_S256x256_S2048x256_S256x2048_1_1_0_0_n_n.rhsIdx (ix2 p q) ((contrEquiv1 dot_S256x256_S2048x256_S256x2048_1_1_0_0_n_n 256 rfl rfl).symm k) = ix2 q k :=
    funext fun a => Fin.ext (by
      match a with
      | ⟨0, _⟩ => exact lowRank_apply_rhsRow _ _
      | ⟨1, _⟩ => exact (dot_S256x256_S2048x256_S256x2048_1_1_0_0_n_n.rhsIdx_val_of_single rfl _ _).trans hk)
  rw [el, er]

/-! ## The stored value -/

/-- The entry the body stores at (u, p, q) of its [1, 256, 2048] output block, from its five loaded blocks. -/
theorem stored_apply (x0 : Vec Ideal S1x256x2048 .f32) (x1 : Vec Ideal S1x256x2048 .bf16) (x2 : Vec Ideal S2048x2048 .bf16)
    (x3 : Vec Ideal S2048x256 .bf16) (x4 : Vec Ideal S1x2048 .f32) (u : Fin 1) (p : Fin 256) (q : Fin 2048) :
    k0_pay1 (F := Ideal) x0 x1 x2 x3 x4 (ix3 u p q)
      = Cert.FastWeight.entry (fun k => x0 (ix3 (0 : Fin 1) p k)) (fun r k => x1 (ix3 (0 : Fin 1) r k))
          (fun k => x2 (ix2 q k)) (fun r => x3 (ix2 q r)) (x4 (ix2 (0 : Fin 1) q)) := by
  unfold k0_pay1
  rw [shapeCast_ab_1ab_apply, addf_apply, addf_apply, linear_apply, lowRank_apply, broadcastTo_1b_ab_apply]
  simp only [truncf_apply, fastProj_apply, shapeCast_1ab_ab_apply, shapeCast_self]
  rfl

end Cert.KernelIdeal.Body

end
-- ==== Proof.Staged.lean ====
/-
  The arrays the kernel's windows stage, as the region finds them.

  Before the call the kernel's host code forms the fast weight (the shared chain of Entry.lean) and passes it, W and P
  through a narrower float format, and reshapes the bias [2048] to one row [1, 2048]. On the extended reals a change of
  format is the identity, and the reshape puts entry q at (0, q). So the five staged arrays are x itself, the fast
  weight, W, P and the bias row, each read here at an index.
-/
import proofs.«141108_j48919677501653_2_alg».proof.Proof.Gen.KernelIdeal.Frame
import proofs.«141108_j48919677501653_2_alg».proof.Proof.Entry
import Idealize.ShloMosaic.Lib.StableHlo.Run
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.FastWeight

variable (m : (ℓ : Loc nD τ sig) → Buf (Elt Ideal) ℓ)

/-- Window 1's array at (b, r, k) is the fast weight of the launch contents of ℓ and S. -/
theorem fastWeight_apply (c : Dev nD) (b : Fin 4) (r : Fin 256) (k : Fin 2048) :
    (V m c main_v8 : S4x256x2048.Idx → EReal) (ix3 b r k)
      = fastWeight (m ((c : Thread nD τ).loc main_arg3)) (m ((c : Thread nD τ).loc main_arg5)) b r k := by
  have e : (V m c main_v8 : S4x256x2048.Idx → EReal)
      = truncf .bf16 (mulf (broadcastInDim (s := S1x256x2048) S4x256x2048 ![0, 1, 2] bcast_S1x256x2048_S4x256x2048_0_1_2
          (broadcastInDim (s := S256x2048) S1x256x2048 ![1, 2] bcast_S256x2048_S1x256x2048_1_2
            (mulf (broadcastInDim (s := S_) S256x2048 ![] bcast_S_S256x2048 (constant (F := Ideal) S_ .f32 0x3C23D70A#32))
              (Host.exp (mulf (m ((c : Thread nD τ).loc main_arg3))
                (broadcastInDim (s := S_) S256x2048 ![] bcast_S_S256x2048 (constant (F := Ideal) S_ .f32 0x423504F3#32)))))))
          (m ((c : Thread nD τ).loc main_arg5))) bitsLt_bf16_f32 := by
    dsimp only [Gen.V, Gen.hostOps0]; after_results
  rw [e]
  exact scaledState_apply _ _ _ _ _ b r k

/-- Window 2's array is W. -/
theorem weight_apply (c : Dev nD) (i : S2048x2048.Idx) :
    (V m c main_v9 : S2048x2048.Idx → EReal) i = m ((c : Thread nD τ).loc main_arg1) i := by
  have e : (V m c main_v9 : S2048x2048.Idx → EReal) = truncf (F := Ideal) (s := S2048x2048) (φ := .f32) .bf16 (m ((c : Thread nD τ).loc main_arg1)) bitsLt_bf16_f32 := by
    dsimp only [Gen.V, Gen.hostOps0]; after_results
  rw [e]; rfl

/-- Window 3's array is P. -/
theorem outProj_apply (c : Dev nD) (i : S2048x256.Idx) :
    (V m c main_v10 : S2048x256.Idx → EReal) i = m ((c : Thread nD τ).loc main_arg4) i := by
  have e : (V m c main_v10 : S2048x256.Idx → EReal) = truncf (F := Ideal) (s := S2048x256) (φ := .f32) .bf16 (m ((c : Thread nD τ).loc main_arg4)) bitsLt_bf16_f32 := by
    dsimp only [Gen.V, Gen.hostOps0]; after_results
  rw [e]; rfl

/-- Window 4's array, the bias as one row, holds β[q] at (0, q). -/
theorem bias_apply (c : Dev nD) (u : Fin 1) (q : Fin 2048) :
    (V m c main_v11 : S1x2048.Idx → EReal) (ix2 u q) = m ((c : Thread nD τ).loc main_arg2) (ix1 q) := by
  have e : (V m c main_v11 : S1x2048.Idx → EReal)
      = shapeCast S1x2048 (m ((c : Thread nD τ).loc main_arg2) : S2048.Idx → EReal) shapeCasts_S2048_S1x2048 := by
    dsimp only [Gen.V, Gen.hostOps0]; after_results; rfl
  rw [e, shapeCast_a_1a_apply]

end Cert.KernelIdeal.Staged

end
-- ==== Proof.Whole.lean ====
/-
  From blocks to the whole result.

  The grid has 4 × 8 points; point (b, σ) handles batch b and rows 256σ … 256σ + 255. Its windows: block (b, σ, 0)
  of x [4, 2048, 2048] in blocks of [1, 256, 2048]; block (b, 0, 0) of the fast weight [4, 256, 2048], the whole batch;
  all of W, of P and of the bias row, at block (0, 0); and it writes block (b, σ, 0) of the result. A block's
  coordinate in its array is always (block index) × (block extent) + (coordinate inside the block). So the entry
  the body stores at (·, p, q) is the specification's entry at (b, 256σ + p, q): the point writes back its block of
  the specification. The 32 blocks tile the result, so the result ends holding the specification everywhere.
-/
import proofs.«141108_j48919677501653_2_alg».proof.Proof.Gen.KernelIdeal.Value
import proofs.«141108_j48919677501653_2_alg».proof.Proof.Body
import proofs.«141108_j48919677501653_2_alg».proof.Proof.Staged
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.FastWeight
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl

/-- The specification at the launch contents of the six arrays the programs read. -/
abbrev spec (c : Dev nD) : S4x2048x2048.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps, decided over the 32 points: x moves with the result on the batch and row-block axes, the
    fast weight on the batch axis only, and every other block index is 0; the result's stay in range. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (2 : Fin 3) = 0 ∧ win0_5.index t (0 : Fin 3) ≤ 3 ∧ win0_5.index t (1 : Fin 3) ≤ 7 :=
  (by decide +kernel : ∀ t : Fin grid0.N, _)

/-- Every (batch, row-block) pair is some point's. -/
theorem idx_onto : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-! ## Each input block, read where its window's rectangle says -/

/-- The x block at (u, p, k) is x at any index with those block coordinates. -/
theorem xBlock_apply (c : Dev nD) (t : Fin cfg0.N) (u : Fin 1) (p : Fin 256) (k : Fin 2048) (i : S4x2048x2048.Idx)
    (h0 : win0_0.index t (0 : Fin 3) * 1 + 1 * u.val = (i 0).val) (h1 : win0_0.index t (1 : Fin 3) * 256 + 1 * p.val = (i 1).val)
    (h2 : win0_0.index t (2 : Fin 3) * 2048 + 1 * k.val = (i 2).val) :
    iblk m c 0 t (ix3 u p k) = (m ((c : Thread nD τ).loc main_arg0)) i := by
  unfold iblk
  rw [View.read_apply]
  show V m c main_arg0 _ = _
  rw [V_main_arg0]
  congr 1
  funext a
  apply Fin.ext
  match a with
  | ⟨0, _⟩ => exact h0
  | ⟨1, _⟩ => exact h1
  | ⟨2, _⟩ => exact h2

/-- The fast-weight block at (u, r, k) is the fast weight of the block's batch. -/
theorem sBlock_apply (c : Dev nD) (t : Fin cfg0.N) (u : Fin 1) (r : Fin 256) (k : Fin 2048) (b : Fin 4)
    (h0 : win0_1.index t (0 : Fin 3) * 1 + 1 * u.val = b.val) (h1 : win0_1.index t (1 : Fin 3) = 0)
    (h2 : win0_1.index t (2 : Fin 3) = 0) :
    iblk m c 1 t (ix3 u r k) = fastWeight (m ((c : Thread nD τ).loc main_arg3)) (m ((c : Thread nD τ).loc main_arg5)) b r k := by
  rw [← Staged.fastWeight_apply m c b r k]
  unfold iblk
  rw [View.read_apply]
  show (V m c main_v8 : S4x256x2048.Idx → EReal) _ = _
  congr 1
  funext a
  apply Fin.ext
  match a with
  | ⟨0, _⟩ => exact h0
  | ⟨1, _⟩ => show win0_1.index t (1 : Fin 3) * 256 + 1 * r.val = r.val; omega
  | ⟨2, _⟩ => show win0_1.index t (2 : Fin 3) * 2048 + 1 * k.val = k.val; omega

/-- The W block is W. -/
theorem wBlock_apply (c : Dev nD) (t : Fin cfg0.N) (q k : Fin 2048)
    (h0 : win0_2.index t (0 : Fin 2) = 0) (h1 : win0_2.index t (1 : Fin 2) = 0) :
    iblk m c 2 t (ix2 q k) = (m ((c : Thread nD τ).loc main_arg1)) (ix2 q k) := by
  rw [← Staged.weight_apply m c (ix2 q k)]
  unfold iblk
  rw [View.read_apply]
  show (V m c main_v9 : S2048x2048.Idx → EReal) _ = _
  congr 1
  funext a
  apply Fin.ext
  match a with
  | ⟨0, _⟩ => show win0_2.index t (0 : Fin 2) * 2048 + 1 * q.val = q.val; omega
  | ⟨1, _⟩ => show win0_2.index t (1 : Fin 2) * 2048 + 1 * k.val = k.val; omega

/-- The P block is P. -/
theorem pBlock_apply (c : Dev nD) (t : Fin cfg0.N) (q : Fin 2048) (r : Fin 256)
    (h0 : win0_3.index t (0 : Fin 2) = 0) (h1 : win0_3.index t (1 : Fin 2) = 0) :
    iblk m c 3 t (ix2 q r) = (m ((c : Thread nD τ).loc main_arg4)) (ix2 q r) := by
  rw [← Staged.outProj_apply m c (ix2 q r)]
  unfold iblk
  rw [View.read_apply]
  show (V m c main_v10 : S2048x256.Idx → EReal) _ = _
  congr 1
  funext a
  apply Fin.ext
  match a with
  | ⟨0, _⟩ => show win0_3.index t (0 : Fin 2) * 2048 + 1 * q.val = q.val; omega
  | ⟨1, _⟩ => show win0_3.index t (1 : Fin 2) * 256 + 1 * r.val = r.val; omega

/-- The bias block at (u, q) is β[q]. -/
theorem biasBlock_apply (c : Dev nD) (t : Fin cfg0.N) (u : Fin 1) (q : Fin 2048)
    (h0 : win0_4.index t (0 : Fin 2) = 0) (h1 : win0_4.index t (1 : Fin 2) = 0) :
    iblk m c 4 t (ix2 u q) = (m ((c : Thread nD τ).loc main_arg2)) (ix1 q) := by
  rw [← Staged.bias_apply m c u q]
  unfold iblk
  rw [View.read_apply]
  show (V m c main_v11 : S1x2048.Idx → EReal) _ = _
  congr 1
  funext a
  apply Fin.ext
  match a with
  | ⟨0, _⟩ => show win0_4.index t (0 : Fin 2) * 1 + 1 * u.val = u.val; omega
  | ⟨1, _⟩ => show win0_4.index t (1 : Fin 2) * 2048 + 1 * q.val = q.val; omega

/-! ## What a point writes back -/

/-- The specification's entry at an array index whose coordinates are those of (u, p, q) inside point `t`'s block
    is the entry the body computes from the point's five input blocks. -/
theorem entry_at (c : Dev nD) (t : Fin cfg0.N) (u : Fin 1) (p : Fin 256) (q : Fin 2048) (i : S4x2048x2048.Idx)
    (c0 : win0_5.index t (0 : Fin 3) * 1 + 1 * u.val = (i 0).val) (c1 : win0_5.index t (1 : Fin 3) * 256 + 1 * p.val = (i 1).val)
    (c2 : win0_5.index t (2 : Fin 3) * 2048 + 1 * q.val = (i 2).val) :
    entry (fun k => iblk m c 0 t (ix3 (0 : Fin 1) p k)) (fun r k => iblk m c 1 t (ix3 (0 : Fin 1) r k))
        (fun k => iblk m c 2 t (ix2 q k)) (fun r => iblk m c 3 t (ix2 q r)) (iblk m c 4 t (ix2 (0 : Fin 1) q))
      = spec m c i := by
  obtain ⟨e00, e01, e02, e10, e11, e12, e20, e21, e30, e31, e40, e41, e52, -, -⟩ := idx_facts t
  have hu : u.val = 0 := by have := u.isLt; omega
  have hq : i 2 = q := Fin.ext (by omega)
  have hx : ∀ k : Fin 2048, iblk m c 0 t (ix3 (0 : Fin 1) p k) = (m ((c : Thread nD τ).loc main_arg0)) (ix3 (i 0) (i 1) k) := fun k =>
    xBlock_apply m c t 0 p k (ix3 (i 0) (i 1) k)
      (by show win0_0.index t (0 : Fin 3) * 1 + 1 * 0 = (i 0).val; omega)
      (by show win0_0.index t (1 : Fin 3) * 256 + 1 * p.val = (i 1).val; omega)
      (by show win0_0.index t (2 : Fin 3) * 2048 + 1 * k.val = k.val; omega)
  have hs : ∀ (r : Fin 256) (k : Fin 2048), iblk m c 1 t (ix3 (0 : Fin 1) r k)
      = fastWeight (m ((c : Thread nD τ).loc main_arg3)) (m ((c : Thread nD τ).loc main_arg5)) (i 0) r k := fun r k =>
    sBlock_apply m c t 0 r k (i 0) (by show win0_1.index t (0 : Fin 3) * 1 + 1 * 0 = (i 0).val; omega) e11 e12
  have hw : ∀ k : Fin 2048, iblk m c 2 t (ix2 q k) = (m ((c : Thread nD τ).loc main_arg1)) (ix2 (i 2) k) := fun k => by
    rw [hq]; exact wBlock_apply m c t q k e20 e21
  have hp : ∀ r : Fin 256, iblk m c 3 t (ix2 q r) = (m ((c : Thread nD τ).loc main_arg4)) (ix2 (i 2) r) := fun r => by
    rw [hq]; exact pBlock_apply m c t q r e30 e31
  have hβ : iblk m c 4 t (ix2 (0 : Fin 1) q) = (m ((c : Thread nD τ).loc main_arg2)) (ix1 (i 2)) := by
    rw [hq]; exact biasBlock_apply m c t 0 q e40 e41
  show entry _ _ _ _ _ = entry _ _ _ _ _
  simp only [hx, hs, hw, hp, hβ]

/-- Point `t` writes back its block of the specification. -/
theorem flushed_eq (c : Dev nD) (t : Fin cfg0.N) :
    (dats m 0 c).flushed 5 t = ((cfg0.win 5).blk t).view.read (Elt Ideal) (spec m c) := by
  rw [Value.flushed5]
  unfold out0_5
  rw [View.canon_unit_zero origin3]
  simp only [View.ld_unit_zero (S := S1x256x2048) origin3, View.ld_unit_zero (S := S2048x2048) origin2,
    View.ld_unit_zero (S := S2048x256) origin2, View.ld_unit_zero (S := S1x2048) origin2]
  funext y
  obtain ⟨u, p, q, rfl⟩ : ∃ (u : Fin 1) (p : Fin 256) (q : Fin 2048), y = ix3 u p q :=
    ⟨y 0, y 1, y 2, eq_ix3 (n0 := 1) (n1 := 256) (n2 := 2048) y⟩
  show k0_pay1 (F := Ideal) (iblk m c 0 t) (iblk m c 1 t) (iblk m c 2 t) (iblk m c 3 t) (iblk m c 4 t) (ix3 u p q)
      = spec m c (((cfg0.win 5).blk t).view.emb (ix3 u p q))
  refine (Body.stored_apply (iblk m c 0 t) (iblk m c 1 t) (iblk m c 2 t) (iblk m c 3 t) (iblk m c 4 t) u p q).trans ?_
  exact entry_at m c t u p q _ rfl rfl rfl

/-! ## The blocks tile the result -/

/-- An index of the result is in point `t`'s block iff each coordinate is in the block's range on its axis. -/
theorem mem_blk (t : Fin cfg0.N) (i : S4x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v12).slice (win0_5.rect t)).set ↔ _
  rw [View.set_slice_whole, Rect.mem_set_unit]
  exact Iff.rfl

/-- Every index (b, j, o) is in the block of the point with batch b and row block j / 256. -/
theorem cover (i : S4x2048x2048.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- So the result array ends holding the specification. -/
theorem final (c : Dev nD) : (dats m 0 c).arrAt 5 cfg0.N = spec m c :=
  (dats m 0 c).arrAt_eq_of_cover 5 (spec m c) (fun t _ => flushed_eq m c t) cover

/-- The kernel's run, read: the result array at the specification of the launch contents, the arguments unchanged. -/
theorem run : θ_run defs (onTc (τ := τ) (main (F := Ideal))) ⟨m, fun _ => 0, ρ⟩ fun r => ∀ c : Dev nD,
      r.2.mem ((c : Thread nD τ).loc main_v12) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.lean ====
/-
  A fast-weight linear layer: y = x Wᵀ + β + (x sᵀ) Pᵀ over x : [4, 2048, 2048], with the fast weight
  s[b, r, k] = (c₀ · exp (ℓ[r, k] · c₁)) · S[b, r, k] formed on the host by both programs through the same operations
  and the same two float constants.

  The kernel tiles (batch, 256 rows): each of its 32 grid points multiplies its block of x against the batch's fast
  weight, against W and, through the first product, against P, each product contracting the last axis of both
  operands into a zero accumulator, and stores (x Wᵀ + (x sᵀ) Pᵀ) + β. The reference computes the same three
  contractions as whole-array products and returns (x Wᵀ + β) + (x sᵀ) Pᵀ.

  Read on the extended reals a change of float format is the identity and a product into a zero accumulator is the
  plain sum over the contracted coordinate, whatever the tiling; so both results are, entry by entry,
      Σ_k x[b, j, k] · W[o, k],   Σ_r (Σ_k x[b, j, k] · s[b, r, k]) · P[o, r],   β[o]
  added in two groupings, which agree because addition of extended reals is commutative and associative at the
  infinities too. Finiteness of the inputs is never used.

  Entry.lean states the function and that law over no program; Reference.lean shows the reference's result is it;
  Body.lean reads the entry the kernel body stores; Staged.lean reads the arrays the kernel's host code prepares;
  Whole.lean goes from the 32 written blocks to the whole result. Here the five claims are assembled.
-/
import proofs.«141108_j48919677501653_2_alg».proof.Defs
import proofs.«141108_j48919677501653_2_alg».proof.Proof.Gen.Kernel
import proofs.«141108_j48919677501653_2_alg».proof.Proof.Gen.Kernel.Skeleton
import proofs.«141108_j48919677501653_2_alg».proof.Proof.Gen.Kernel.Launch
import proofs.«141108_j48919677501653_2_alg».proof.Proof.Gen.Kernel.Points
import proofs.«141108_j48919677501653_2_alg».proof.Proof.Gen.Kernel.Frame
import proofs.«141108_j48919677501653_2_alg».proof.Proof.Gen.KernelIdeal
import proofs.«141108_j48919677501653_2_alg».proof.Proof.Gen.KernelIdeal.Skeleton
import proofs.«141108_j48919677501653_2_alg».proof.Proof.Gen.KernelIdeal.Launch
import proofs.«141108_j48919677501653_2_alg».proof.Proof.Gen.KernelIdeal.Points
import proofs.«141108_j48919677501653_2_alg».proof.Proof.Gen.KernelIdeal.Frame
import proofs.«141108_j48919677501653_2_alg».proof.Proof.Gen.ReferenceIdeal
import proofs.«141108_j48919677501653_2_alg».proof.Proof.Gen.Pre_finite_inputs
import proofs.«141108_j48919677501653_2_alg».proof.Proof.Gen.KernelIdeal.Value
import proofs.«141108_j48919677501653_2_alg».proof.Proof.Gen.ReferenceIdeal.Run
import proofs.«141108_j48919677501653_2_alg».proof.Proof.Gen.ReferenceIdeal.Read
import proofs.«141108_j48919677501653_2_alg».proof.Proof.Reference
import proofs.«141108_j48919677501653_2_alg».proof.Proof.Whole
import Idealize.ShloMosaic.Adequacy
import Idealize.ShloMosaic.Init

noncomputable section

namespace Cert.Proof

open Idealize.ShloMosaic Idealize.SL.Sem

/-- The kernel as printed terminates, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals: nothing to preserve. -/
theorem preserves : Cert.preserves_Kernel_KernelIdeal := trivial

/-- From memories agreeing on the arguments, the kernel's result array ends at the specification of its launch
    contents (the 32 blocks tile it), and the reference's at its last stage, which is the specification of ITS launch
    contents: the same arrays. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, -⟩ := hagree c
  rw [Cert.ReferenceIdeal.Read.val_main_v14_eq, Cert.ReferenceIdeal.AsEntry.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
